-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S256x512 : Shape := ⟨2, ![256, 512]⟩
abbrev S8x256 : Shape := ⟨2, ![8, 256]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : FVec F S32x4096x512 .f32) (main_arg1 : FVec F S256x512 .f32) (main_arg2 : FVec F S8x256 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  main_v13
-- ==== Kernel.lean ====
abbrev S32x4096x512 : Shape := ⟨3, ![32, 4096, 512]⟩
abbrev S256x512 : Shape := ⟨2, ![256, 512]⟩
abbrev S8x256 : Shape := ⟨2, ![8, 256]⟩
abbrev S32x8x512 : Shape := ⟨3, ![32, 8, 512]⟩
abbrev S32x8x4096 : Shape := ⟨3, ![32, 8, 4096]⟩
abbrev S1x4096x512 : Shape := ⟨3, ![1, 4096, 512]⟩
abbrev S1x8x512 : Shape := ⟨3, ![1, 8, 512]⟩
abbrev S1x8x4096 : Shape := ⟨3, ![1, 8, 4096]⟩
abbrev S4096x512 : Shape := ⟨2, ![4096, 512]⟩
abbrev S4096x256 : Shape := ⟨2, ![4096, 256]⟩
abbrev S8x4096 : Shape := ⟨2, ![8, 4096]⟩
abbrev S8 : Shape := ⟨1, ![8]⟩
abbrev S8x1 : Shape := ⟨2, ![8, 1]⟩
abbrev S8x512 : Shape := ⟨2, ![8, 512]⟩
abbrev S8x8 : Shape := ⟨2, ![8, 8]⟩
abbrev S_ : Shape := ⟨0, ![]⟩
abbrev S32x8x8 : Shape := ⟨3, ![32, 8, 8]⟩
abbrev S1x8x8 : Shape := ⟨3, ![1, 8, 8]⟩

abbrev nBuf : Space → Nat
  | .hbm => 23
  | .vmem => 8
  | .smem => 0
  | _ => 0

abbrev bufTy : (tb : Table) → Fin (tcTables nBuf tb) → BufTy
  | .hbm, ⟨0, _⟩ => ⟨S32x4096x512, .f32⟩
  | .hbm, ⟨1, _⟩ => ⟨S256x512, .f32⟩
  | .hbm, ⟨2, _⟩ => ⟨S8x256, .f32⟩
  | .hbm, ⟨3, _⟩ => ⟨S32x8x512, .f32⟩
  | .hbm, ⟨4, _⟩ => ⟨S32x8x4096, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S32x8x8, .f32⟩
  | .hbm, ⟨13, _⟩ => ⟨S1x8x8, .f32⟩
  | .hbm, ⟨14, _⟩ => ⟨S32x8x8, .f32⟩
  | .hbm, ⟨15, _⟩ => ⟨S32x8x8, .f32⟩
  | .hbm, ⟨16, _⟩ => ⟨S32x8x8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x4096x512, .f32⟩
  | .local _ .vmem, ⟨1, _⟩ => ⟨S1x4096x512, .f32⟩
  | .local _ .vmem, ⟨2, _⟩ => ⟨S256x512, .f32⟩
  | .local _ .vmem, ⟨3, _⟩ => ⟨S8x256, .f32⟩
  | .local _ .vmem, ⟨4, _⟩ => ⟨S1x8x512, .f32⟩
  | .local _ .vmem, ⟨5, _⟩ => ⟨S1x8x512, .f32⟩
  | .local _ .vmem, ⟨6, _⟩ => ⟨S1x8x4096, .f32⟩
  | .local _ .vmem, ⟨7, _⟩ => ⟨S1x8x4096, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S256x512_S256x512_0_0 : ∀ a, (![0, 0] : Fin 2 → Nat) a + S256x512.size a ≤ S256x512.size a
  h_S256x512 : 0 < S256x512.numel
  inb_S8x256_S8x256_0_0 : ∀ a, (![0, 0] : Fin 2 → Nat) a + S8x256.size a ≤ S8x256.size a
  h_S8x256 : 0 < S8x256.numel
  bitsLt_bf16_f32 : FTy.bits .bf16 < FTy.bits .f32
  reduces_S8x4096_S8 : S8x4096.Reduces [1] S8
  shapeCasts_S8_S8x1 : S8.ShapeCasts S8x1
  broadcasts_S8x1_S8x4096 : S8x1.Broadcasts S8x4096
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S32x8x8_0_1_2 : S1x8x8.BroadcastsInDim S32x8x8 (![0, 1, 2] : Fin 3 → Fin S32x8x8.rank)
  reducesTo_S32x8x8_S_d0_1_2 : S32x8x8.ReducesTo [0, 1, 2] S_
  h_S_ : 0 < S_.numel
  dot_S4096x512_S256x512_S4096x256_1_1_0_0_n_n_wf : DotDims.WF S4096x512 S256x512 S4096x256 [1] [1] [0] [0] [] []
  dot_S8x256_S4096x256_S8x4096_1_1_0_0_n_n_wf : DotDims.WF S8x256 S4096x256 S8x4096 [1] [1] [0] [0] [] []
  dot_S8x4096_S4096x512_S8x512_1_0_0_1_n_n_wf : DotDims.WF S8x4096 S4096x512 S8x512 [1] [0] [0] [1] [] []
  dot_S32x8x4096_S32x8x4096_S32x8x8_2_2_1_1_0_0_wf : DotDims.WF S32x8x4096 S32x8x4096 S32x8x8 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x4096x512.size a
  hwx0_0 : ∀ i : grid0.Coords, EltTy.bits .f32 = 32 ∨ (Rect.block (s := S32x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512.size a ≤ S32x8x512.size a
  hwx0_3 : ∀ i : grid0.Coords, EltTy.bits .f32 = 32 ∨ (Rect.block (s := S32x8x512) S1x8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x4096.size a ≤ S32x8x4096.size a
  hwx0_4 : ∀ i : grid0.Coords, EltTy.bits .f32 = 32 ∨ (Rect.block (s := S32x8x4096) S1x8x4096.size (cc0_transform_4 i) (hinb0_4 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf
def dot_S8x256_S4096x256_S8x4096_1_1_0_0_n_n : DotDims S8x256 S4096x256 S8x4096 where
  lhsContracting := [1]
  rhsContracting := [1]
  lhsNonContracting := [0]
  rhsNonContracting := [0]
  lhsBatch := []
  rhsBatch := []
  wf := dot_S8x256_S4096x256_S8x4096_1_1_0_0_n_n_wf
def dot_S8x4096_S4096x512_S8x512_1_0_0_1_n_n : DotDims S8x4096 S4096x512 S8x512 where
  lhsContracting := [1]
  rhsContracting := [0]
  lhsNonContracting := [0]
  rhsNonContracting := [1]
  lhsBatch := []
  rhsBatch := []
  wf := dot_S8x4096_S4096x512_S8x512_1_0_0_1_n_n_wf
def dot_S32x8x4096_S32x8x4096_S32x8x8_2_2_1_1_0_0 : DotDims S32x8x4096 S32x8x4096 S32x8x8 where
  lhsContracting := [2]
  rhsContracting := [2]
  lhsNonContracting := [1]
  rhsNonContracting := [1]
  lhsBatch := [0]
  rhsBatch := [0]
  wf := dot_S32x8x4096_S32x8x4096_S32x8x8_2_2_1_1_0_0_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S256x512 : Shape := ⟨2, ![256, 512]⟩
abbrev S8x256 : Shape := ⟨2, ![8, 256]⟩
abbrev S32x4096x256 : Shape := ⟨3, ![32, 4096, 256]⟩
abbrev S8x32x4096 : Shape := ⟨3, ![8, 32, 4096]⟩
abbrev S32x8x4096 : Shape := ⟨3, ![32, 8, 4096]⟩
abbrev S_ : Shape := ⟨0, ![]⟩
abbrev S32x8 : Shape := ⟨2, ![32, 8]⟩
abbrev S32x8x1 : Shape := ⟨3, ![32, 8, 1]⟩
abbrev S32x8x512 : Shape := ⟨3, ![32, 8, 512]⟩
abbrev S32x8x8 : Shape := ⟨3, ![32, 8, 8]⟩
abbrev S8x8 : Shape := ⟨2, ![8, 8]⟩
abbrev S1x8x8 : Shape := ⟨3, ![1, 8, 8]⟩

abbrev nBuf : Space → Nat
  | .hbm => 40
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S256x512, .f32⟩
  | .hbm, ⟨2, _⟩ => ⟨S8x256, .f32⟩
  | .hbm, ⟨3, _⟩ => ⟨S32x4096x256, .f32⟩
  | .hbm, ⟨4, _⟩ => ⟨S32x4096x256, .f32⟩
  | .hbm, ⟨5, _⟩ => ⟨S8x32x4096, .f32⟩
  | .hbm, ⟨6, _⟩ => ⟨S32x8x4096, .f32⟩
  | .hbm, ⟨7, _⟩ => ⟨S_, .f32⟩
  | .hbm, ⟨8, _⟩ => ⟨S32x8, .f32⟩
  | .hbm, ⟨9, _⟩ => ⟨S_, .f32⟩
  | .hbm, ⟨10, _⟩ => ⟨S32x8, .f32⟩
  | .hbm, ⟨11, _⟩ => ⟨S32x8, .f32⟩
  | .hbm, ⟨12, _⟩ => ⟨S32x8x1, .f32⟩
  | .hbm, ⟨13, _⟩ => ⟨S32x8x4096, .f32⟩
  | .hbm, ⟨14, _⟩ => ⟨S32x8x4096, .f32⟩
  | .hbm, ⟨15, _⟩ => ⟨S32x8x4096, .f32⟩
  | .hbm, ⟨16, _⟩ => ⟨S_, .f32⟩
  | .hbm, ⟨17, _⟩ => ⟨S32x8, .f32⟩
  | .hbm, ⟨18, _⟩ => ⟨S32x8x1, .f32⟩
  | .hbm, ⟨19, _⟩ => ⟨S32x8x4096, .f32⟩
  | .hbm, ⟨20, _⟩ => ⟨S32x8x4096, .f32⟩
  | .hbm, ⟨21, _⟩ => ⟨S32x8x512, .f32⟩
  | .hbm, ⟨22, _⟩ => ⟨S32x8x8, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S1x8x8, .f32⟩
  | .hbm, ⟨31, _⟩ => ⟨S32x8x8, .f32⟩
  | .hbm, ⟨32, _⟩ => ⟨S32x8x8, .f32⟩
  | .hbm, ⟨33, _⟩ => ⟨S32x8x8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  transposes_S8x32x4096_S32x8x4096_1_0_2 : S8x32x4096.Transposes [1, 0, 2] S32x8x4096
  reducesTo_S32x8x4096_S32x8_d2 : S32x8x4096.ReducesTo [2] S32x8
  h_S_ : 0 < S_.numel
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  bcast_S32x8x1_S32x8x4096_0_1_2 : S32x8x1.BroadcastsInDim S32x8x4096 (![0, 1, 2] : Fin 3 → Fin S32x8x4096.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S32x8x8_0_1_2 : S1x8x8.BroadcastsInDim S32x8x8 (![0, 1, 2] : Fin 3 → Fin S32x8x8.rank)
  reducesTo_S32x8x8_S_d0_1_2 : S32x8x8.ReducesTo [0, 1, 2] S_
  dot_S32x4096x512_S256x512_S32x4096x256_2_1_01_0_n_n_wf : DotDims.WF S32x4096x512 S256x512 S32x4096x256 [2] [1] [0, 1] [0] [] []
  dot_S8x256_S32x4096x256_S8x32x4096_1_2_0_01_n_n_wf : DotDims.WF S8x256 S32x4096x256 S8x32x4096 [1] [2] [0] [0, 1] [] []
  dot_S32x8x4096_S32x4096x512_S32x8x512_2_1_1_2_0_0_wf : DotDims.WF S32x8x4096 S32x4096x512 S32x8x512 [2] [1] [1] [2] [0] [0]
  dot_S32x8x4096_S32x8x4096_S32x8x8_2_2_1_1_0_0_wf : DotDims.WF S32x8x4096 S32x8x4096 S32x8x8 [2] [2] [1] [1] [0] [0]

variable [Facts₀]

def dot_S32x4096x512_S256x512_S32x4096x256_2_1_01_0_n_n : DotDims S32x4096x512 S256x512 S32x4096x256 where
  lhsContracting := [2]
  rhsContracting := [1]
  lhsNonContracting := [0, 1]
  rhsNonContracting := [0]
  lhsBatch := []
  rhsBatch := []
  wf := dot_S32x4096x512_S256x512_S32x4096x256_2_1_01_0_n_n_wf
def dot_S8x256_S32x4096x256_S8x32x4096_1_2_0_01_n_n : DotDims S8x256 S32x4096x256 S8x32x4096 where
  lhsContracting := [1]
  rhsContracting := [2]
  lhsNonContracting := [0]
  rhsNonContracting := [0, 1]
  lhsBatch := []
  rhsBatch := []
  wf := dot_S8x256_S32x4096x256_S8x32x4096_1_2_0_01_n_n_wf
def dot_S32x8x4096_S32x4096x512_S32x8x512_2_1_1_2_0_0 : DotDims S32x8x4096 S32x4096x512 S32x8x512 where
  lhsContracting := [2]
  rhsContracting := [1]
  lhsNonContracting := [1]
  rhsNonContracting := [2]
  lhsBatch := [0]
  rhsBatch := [0]
  wf := dot_S32x8x4096_S32x4096x512_S32x8x512_2_1_1_2_0_0_wf
def dot_S32x8x4096_S32x8x4096_S32x8x8_2_2_1_1_0_0 : DotDims S32x8x4096 S32x8x4096 S32x8x8 where
  lhsContracting := [2]
  rhsContracting := [2]
  lhsNonContracting := [1]
  rhsNonContracting := [1]
  lhsBatch := [0]
  rhsBatch := [0]
  wf := dot_S32x8x4096_S32x8x4096_S32x8x8_2_2_1_1_0_0_wf

class Facts : Prop extends Facts₀ where

variable [Facts]
-- ==== Proof.Spec.lean ====
/-
  One attention block per batch entry, index by index, on the extended reals.

  For one batch entry the inputs are a matrix X of 4096 rows (sequence positions) by 512 features, a projection
  W1 (256 × 512) and a second projection W2 (8 × 256).  Each position s gets a hidden vector
  tanh (X s · W1 a) over the 256 hidden units a; each of the 8 heads r scores position s by W2 r · hidden s; the
  scores of a head are turned into weights over the 4096 positions by subtracting the head's largest score (a fold of
  `max` from −∞), exponentiating, and dividing by the sum of the exponentials; and the head's output is the
  weighted sum of the rows of X.  Nothing here is rounded and no sum is given an order: every sum is a finite sum
  over its index type.

  The two arrays the programs return from this block are `weights` (32 × 8 × 4096) and `mixes` (32 × 8 × 512),
  batch entry b using rows (b, ·, ·) of the three-axis input.
-/
import Idealize.ShloMosaic.Lib.ValueIdx
import Idealize.ShloMosaic.PureOps.Ideal

noncomputable section

open scoped BigOperators

namespace Cert.Attn

open Idealize.ShloMosaic Idealize.ShloMosaic.ValueIdx

section OneBatch

variable (X : Fin 4096 → Fin 512 → EReal) (W1 : Fin 256 → Fin 512 → EReal) (W2 : Fin 8 → Fin 256 → EReal)

/-- Hidden unit `a` at position `s`: tanh of the row of X against row `a` of W1. -/
def hidden (s : Fin 4096) (a : Fin 256) : EReal := Ideal.tanh (∑ d : Fin 512, X s d * W1 a d)

/-- Head `r`'s score of position `s`: row `r` of W2 against the hidden vector of `s`. -/
def score (r : Fin 8) (s : Fin 4096) : EReal := ∑ a : Fin 256, W2 r a * hidden X W1 s a

/-- Head `r`'s largest score, as the fold of `max` from −∞ over the positions. -/
def top (r : Fin 8) : EReal :=
  (Finset.univ : Finset (Fin 4096)).fold max (Ideal.ofBits .f32 0xFF800000#32) (fun s => score X W1 W2 r s)

/-- The exponential of a score after the head's largest score is subtracted. -/
def lifted (r : Fin 8) (s : Fin 4096) : EReal := Ideal.exp (score X W1 W2 r s - top X W1 W2 r)

/-- The sum of a head's exponentials over the positions. -/
def mass (r : Fin 8) : EReal := ∑ s : Fin 4096, lifted X W1 W2 r s

/-- Head `r`'s weight on position `s`. -/
def weight (r : Fin 8) (s : Fin 4096) : EReal := Ideal.div (lifted X W1 W2 r s) (mass X W1 W2 r)

/-- Head `r`'s output feature `d`: the weighted sum of column `d` of X. -/
def mixed (r : Fin 8) (d : Fin 512) : EReal := ∑ s : Fin 4096, weight X W1 W2 r s * X s d

end OneBatch

/-- Batch entry `b` of a three-axis input, as a matrix. -/
def rowsOf (x : (⟨3, ![32, 4096, 512]⟩ : Shape).Idx → EReal) (b : Fin 32) : Fin 4096 → Fin 512 → EReal :=
  fun s d => x (ix3 b s d)

/-- A two-axis array as a matrix. -/
def mat {p q : ℕ} (w : (⟨2, ![p, q]⟩ : Shape).Idx → EReal) : Fin p → Fin q → EReal := fun i j => w (ix2 i j)

/-- The weights of every batch entry, head and position. -/
def weights (x : (⟨3, ![32, 4096, 512]⟩ : Shape).Idx → EReal) (w1 : (⟨2, ![256, 512]⟩ : Shape).Idx → EReal)
    (w2 : (⟨2, ![8, 256]⟩ : Shape).Idx → EReal) : (⟨3, ![32, 8, 4096]⟩ : Shape).Idx → EReal :=
  fun i => weight (rowsOf x (i 0)) (mat w1) (mat w2) (i 1) (i 2)

/-- The outputs of every batch entry, head and feature. -/
def mixes (x : (⟨3, ![32, 4096, 512]⟩ : Shape).Idx → EReal) (w1 : (⟨2, ![256, 512]⟩ : Shape).Idx → EReal)
    (w2 : (⟨2, ![8, 256]⟩ : Shape).Idx → EReal) : (⟨3, ![32, 8, 512]⟩ : Shape).Idx → EReal :=
  fun i => mixed (rowsOf x (i 0)) (mat w1) (mat w2) (i 1) (i 2)

end Cert.Attn

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelBody.lean ====
/-
  What one grid step of the kernel computes, entry by entry, on the extended reals.

  At a grid step the kernel holds one batch entry's block X (1 × 4096 × 512), the projection W1 (256 × 512) and the
  second projection W2 (8 × 256).  It forms X · W1ᵀ, applies tanh, forms W2 · (that)ᵀ as the 8 × 4096 scores, takes
  each row's maximum from −∞, exponentiates the differences, sums each row, divides, and multiplies the resulting
  8 × 4096 weights into X.  Changes of float format are the identity on the extended reals, and a matrix product
  into a zero accumulator is the plain sum over the contracted index; so each entry of the two stored values is the
  `weight` and the `mixed` of the specification, of the block read as matrices.
-/
import proofs.«121916_j8392366096665_2_alg».proof.Proof.Gen.KernelIdeal.Skeleton
import proofs.«121916_j8392366096665_2_alg».proof.Proof.Spec
import proofs.«121916_j8392366096665_2_alg».proof.Proof.LibRowMax
import proofs.«121916_j8392366096665_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The three matrix products at an entry -/

section FirstProduct

theorem lhs1_0 (i : S4096x256.Idx) (q : dot_S4096x512_S256x512_S4096x256_1_1_0_0_n_n.contr.Idx) :
    (dot_S4096x512_S256x512_S4096x256_1_1_0_0_n_n.lhsIdx i q 0).val = (i 0).val := by
  unfold DotDims.lhsIdx
  rw [dif_neg (show ¬(0 : Fin S4096x512.rank) ∈ dot_S4096x512_S256x512_S4096x256_1_1_0_0_n_n.lhsBatch by decide), dif_pos (show (0 : Fin S4096x512.rank) ∈ dot_S4096x512_S256x512_S4096x256_1_1_0_0_n_n.lhsNonContracting by decide)]
  rfl
theorem lhs1_1 (i : S4096x256.Idx) (q : dot_S4096x512_S256x512_S4096x256_1_1_0_0_n_n.contr.Idx) :
    (dot_S4096x512_S256x512_S4096x256_1_1_0_0_n_n.lhsIdx i q 1).val = (q ⟨0, by decide⟩).val :=
  dot_S4096x512_S256x512_S4096x256_1_1_0_0_n_n.lhsIdx_val_of_single rfl i q
theorem rhs1_0 (i : S4096x256.Idx) (q : dot_S4096x512_S256x512_S4096x256_1_1_0_0_n_n.contr.Idx) :
    (dot_S4096x512_S256x512_S4096x256_1_1_0_0_n_n.rhsIdx i q 0).val = (i 1).val := by
  unfold DotDims.rhsIdx
  rw [dif_neg (show ¬(0 : Fin S256x512.rank) ∈ dot_S4096x512_S256x512_S4096x256_1_1_0_0_n_n.rhsBatch by decide), dif_pos (show (0 : Fin S256x512.rank) ∈ dot_S4096x512_S256x512_S4096x256_1_1_0_0_n_n.rhsNonContracting by decide)]
  rfl
theorem rhs1_1 (i : S4096x256.Idx) (q : dot_S4096x512_S256x512_S4096x256_1_1_0_0_n_n.contr.Idx) :
    (dot_S4096x512_S256x512_S4096x256_1_1_0_0_n_n.rhsIdx i q 1).val = (q ⟨0, by decide⟩).val :=
  dot_S4096x512_S256x512_S4096x256_1_1_0_0_n_n.rhsIdx_val_of_single rfl i q

/-- Rows against rows: entry (s, a) of L · Rᵀ into a zero accumulator is the sum over d of L (s, d) · R (a, d). -/
theorem first_product_apply (L : FVec Ideal S4096x512 .bf16) (R : FVec Ideal S256x512 .bf16) (s : Fin 4096) (a : Fin 256) :
    matmul dot_S4096x512_S256x512_S4096x256_1_1_0_0_n_n none L R (constant S4096x256 .f32 0x00000000#32) (ix2 s a)
      = ∑ d : Fin 512, L (ix2 s d) * R (ix2 a d) := by
  refine (Ideal.matmul_constant_zero_apply dot_S4096x512_S256x512_S4096x256_1_1_0_0_n_n none L R (ix2 s a)).trans ?_
  rw [← Equiv.sum_comp (contrEquiv1 dot_S4096x512_S256x512_S4096x256_1_1_0_0_n_n 512 rfl rfl).symm]
  refine Finset.sum_congr rfl fun k _ => ?_
  have hk := contrEquiv1_symm_val dot_S4096x512_S256x512_S4096x256_1_1_0_0_n_n 512 rfl rfl k
  have el : dot_S4096x512_S256x512_S4096x256_1_1_0_0_n_n.lhsIdx (ix2 s a) ((contrEquiv1 dot_S4096x512_S256x512_S4096x256_1_1_0_0_n_n 512 rfl rfl).symm k) = ix2 s k := funext fun ax => Fin.ext (by
    match ax with
    | ⟨0, _⟩ => exact lhs1_0 _ _
    | ⟨1, _⟩ => exact (lhs1_1 _ _).trans hk)
  have er : dot_S4096x512_S256x512_S4096x256_1_1_0_0_n_n.rhsIdx (ix2 s a) ((contrEquiv1 dot_S4096x512_S256x512_S4096x256_1_1_0_0_n_n 512 rfl rfl).symm k) = ix2 a k := funext fun ax => Fin.ext (by
    match ax with
    | ⟨0, _⟩ => exact rhs1_0 _ _
    | ⟨1, _⟩ => exact (rhs1_1 _ _).trans hk)
  rw [el, er]

end FirstProduct

section SecondProduct

theorem lhs2_0 (i : S8x4096.Idx) (q : dot_S8x256_S4096x256_S8x4096_1_1_0_0_n_n.contr.Idx) :
    (dot_S8x256_S4096x256_S8x4096_1_1_0_0_n_n.lhsIdx i q 0).val = (i 0).val := by
  unfold DotDims.lhsIdx
  rw [dif_neg (show ¬(0 : Fin S8x256.rank) ∈ dot_S8x256_S4096x256_S8x4096_1_1_0_0_n_n.lhsBatch by decide), dif_pos (show (0 : Fin S8x256.rank) ∈ dot_S8x256_S4096x256_S8x4096_1_1_0_0_n_n.lhsNonContracting by decide)]
  rfl
theorem lhs2_1 (i : S8x4096.Idx) (q : dot_S8x256_S4096x256_S8x4096_1_1_0_0_n_n.contr.Idx) :
    (dot_S8x256_S4096x256_S8x4096_1_1_0_0_n_n.lhsIdx i q 1).val = (q ⟨0, by decide⟩).val :=
  dot_S8x256_S4096x256_S8x4096_1_1_0_0_n_n.lhsIdx_val_of_single rfl i q
theorem rhs2_0 (i : S8x4096.Idx) (q : dot_S8x256_S4096x256_S8x4096_1_1_0_0_n_n.contr.Idx) :
    (dot_S8x256_S4096x256_S8x4096_1_1_0_0_n_n.rhsIdx i q 0).val = (i 1).val := by
  unfold DotDims.rhsIdx
  rw [dif_neg (show ¬(0 : Fin S4096x256.rank) ∈ dot_S8x256_S4096x256_S8x4096_1_1_0_0_n_n.rhsBatch by decide), dif_pos (show (0 : Fin S4096x256.rank) ∈ dot_S8x256_S4096x256_S8x4096_1_1_0_0_n_n.rhsNonContracting by decide)]
  rfl
theorem rhs2_1 (i : S8x4096.Idx) (q : dot_S8x256_S4096x256_S8x4096_1_1_0_0_n_n.contr.Idx) :
    (dot_S8x256_S4096x256_S8x4096_1_1_0_0_n_n.rhsIdx i q 1).val = (q ⟨0, by decide⟩).val :=
  dot_S8x256_S4096x256_S8x4096_1_1_0_0_n_n.rhsIdx_val_of_single rfl i q

/-- Rows against rows again: entry (r, s) of L · Rᵀ into a zero accumulator is the sum over a of L (r, a) · R (s, a). -/
theorem second_product_apply (L : FVec Ideal S8x256 .bf16) (R : FVec Ideal S4096x256 .bf16) (r : Fin 8) (s : Fin 4096) :
    matmul dot_S8x256_S4096x256_S8x4096_1_1_0_0_n_n none L R (constant S8x4096 .f32 0x00000000#32) (ix2 r s)
      = ∑ a : Fin 256, L (ix2 r a) * R (ix2 s a) := by
  refine (Ideal.matmul_constant_zero_apply dot_S8x256_S4096x256_S8x4096_1_1_0_0_n_n none L R (ix2 r s)).trans ?_
  rw [← Equiv.sum_comp (contrEquiv1 dot_S8x256_S4096x256_S8x4096_1_1_0_0_n_n 256 rfl rfl).symm]
  refine Finset.sum_congr rfl fun k _ => ?_
  have hk := contrEquiv1_symm_val dot_S8x256_S4096x256_S8x4096_1_1_0_0_n_n 256 rfl rfl k
  have el : dot_S8x256_S4096x256_S8x4096_1_1_0_0_n_n.lhsIdx (ix2 r s) ((contrEquiv1 dot_S8x256_S4096x256_S8x4096_1_1_0_0_n_n 256 rfl rfl).symm k) = ix2 r k := funext fun ax => Fin.ext (by
    match ax with
    | ⟨0, _⟩ => exact lhs2_0 _ _
    | ⟨1, _⟩ => exact (lhs2_1 _ _).trans hk)
  have er : dot_S8x256_S4096x256_S8x4096_1_1_0_0_n_n.rhsIdx (ix2 r s) ((contrEquiv1 dot_S8x256_S4096x256_S8x4096_1_1_0_0_n_n 256 rfl rfl).symm k) = ix2 s k := funext fun ax => Fin.ext (by
    match ax with
    | ⟨0, _⟩ => exact rhs2_0 _ _
    | ⟨1, _⟩ => exact (rhs2_1 _ _).trans hk)
  rw [el, er]

end SecondProduct

section ThirdProduct

theorem lhs3_0 (i : S8x512.Idx) (q : dot_S8x4096_S4096x512_S8x512_1_0_0_1_n_n.contr.Idx) :
    (dot_S8x4096_S4096x512_S8x512_1_0_0_1_n_n.lhsIdx i q 0).val = (i 0).val := by
  unfold DotDims.lhsIdx
  rw [dif_neg (show ¬(0 : Fin S8x4096.rank) ∈ dot_S8x4096_S4096x512_S8x512_1_0_0_1_n_n.lhsBatch by decide), dif_pos (show (0 : Fin S8x4096.rank) ∈ dot_S8x4096_S4096x512_S8x512_1_0_0_1_n_n.lhsNonContracting by decide)]
  rfl
theorem lhs3_1 (i : S8x512.Idx) (q : dot_S8x4096_S4096x512_S8x512_1_0_0_1_n_n.contr.Idx) :
    (dot_S8x4096_S4096x512_S8x512_1_0_0_1_n_n.lhsIdx i q 1).val = (q ⟨0, by decide⟩).val :=
  dot_S8x4096_S4096x512_S8x512_1_0_0_1_n_n.lhsIdx_val_of_single rfl i q
theorem rhs3_0 (i : S8x512.Idx) (q : dot_S8x4096_S4096x512_S8x512_1_0_0_1_n_n.contr.Idx) :
    (dot_S8x4096_S4096x512_S8x512_1_0_0_1_n_n.rhsIdx i q 0).val = (q ⟨0, by decide⟩).val :=
  dot_S8x4096_S4096x512_S8x512_1_0_0_1_n_n.rhsIdx_val_of_single rfl i q
theorem rhs3_1 (i : S8x512.Idx) (q : dot_S8x4096_S4096x512_S8x512_1_0_0_1_n_n.contr.Idx) :
    (dot_S8x4096_S4096x512_S8x512_1_0_0_1_n_n.rhsIdx i q 1).val = (i 1).val := by
  unfold DotDims.rhsIdx
  rw [dif_neg (show ¬(1 : Fin S4096x512.rank) ∈ dot_S8x4096_S4096x512_S8x512_1_0_0_1_n_n.rhsBatch by decide), dif_pos (show (1 : Fin S4096x512.rank) ∈ dot_S8x4096_S4096x512_S8x512_1_0_0_1_n_n.rhsNonContracting by decide)]
  rfl

/-- Rows against columns: entry (r, d) of L · R into a zero accumulator is the sum over s of L (r, s) · R (s, d). -/
theorem third_product_apply (L : FVec Ideal S8x4096 .bf16) (R : FVec Ideal S4096x512 .bf16) (r : Fin 8) (d : Fin 512) :
    matmul dot_S8x4096_S4096x512_S8x512_1_0_0_1_n_n none L R (constant S8x512 .f32 0x00000000#32) (ix2 r d)
      = ∑ s : Fin 4096, L (ix2 r s) * R (ix2 s d) := by
  refine (Ideal.matmul_constant_zero_apply dot_S8x4096_S4096x512_S8x512_1_0_0_1_n_n none L R (ix2 r d)).trans ?_
  rw [← Equiv.sum_comp (contrEquiv1 dot_S8x4096_S4096x512_S8x512_1_0_0_1_n_n 4096 rfl rfl).symm]
  refine Finset.sum_congr rfl fun k _ => ?_
  have hk := contrEquiv1_symm_val dot_S8x4096_S4096x512_S8x512_1_0_0_1_n_n 4096 rfl rfl k
  have el : dot_S8x4096_S4096x512_S8x512_1_0_0_1_n_n.lhsIdx (ix2 r d) ((contrEquiv1 dot_S8x4096_S4096x512_S8x512_1_0_0_1_n_n 4096 rfl rfl).symm k) = ix2 r k := funext fun ax => Fin.ext (by
    match ax with
    | ⟨0, _⟩ => exact lhs3_0 _ _
    | ⟨1, _⟩ => exact (lhs3_1 _ _).trans hk)
  have er : dot_S8x4096_S4096x512_S8x512_1_0_0_1_n_n.rhsIdx (ix2 r d) ((contrEquiv1 dot_S8x4096_S4096x512_S8x512_1_0_0_1_n_n 4096 rfl rfl).symm k) = ix2 k d := funext fun ax => Fin.ext (by
    match ax with
    | ⟨0, _⟩ => exact (rhs3_0 _ _).trans hk
    | ⟨1, _⟩ => exact rhs3_1 _ _)
  rw [el, er]

end ThirdProduct

/-! ## The stored values as the specification's functions of the block -/

/-- The block of one batch entry as a matrix of 4096 rows by 512 features. -/
def blockRows (x0 : Vec Ideal S1x4096x512 .f32) : Fin 4096 → Fin 512 → EReal := fun s d => x0 (ix3 (0 : Fin 1) s d)

variable (x0 : Vec Ideal S1x4096x512 .f32) (x1 : Vec Ideal S256x512 .f32) (x2 : Vec Ideal S8x256 .f32)

/-- The block with its unit axis dropped: entry (s, d) is entry (0, s, d). -/
theorem pay1_apply (s : Fin 4096) (d : Fin 512) : k0_pay1 x0 (ix2 s d) = x0 (ix3 (0 : Fin 1) s d) :=
  shapeCast_1ab_ab_apply (a := 4096) (b := 512) x0 shapeCasts_S1x4096x512_S4096x512 s d

/-- X · W1ᵀ. -/
def preact : FVec Ideal S4096x256 .f32 :=
  matmul dot_S4096x512_S256x512_S4096x256_1_1_0_0_n_n none (k0_pay1 x0) (truncf .bf16 x1 bitsLt_bf16_f32) (constant S4096x256 .f32 0x00000000#32)

/-- W2 · tanh (X · W1ᵀ)ᵀ: the scores. -/
def scoresV : FVec Ideal S8x4096 .f32 :=
  matmul dot_S8x256_S4096x256_S8x4096_1_1_0_0_n_n none (truncf .bf16 x2 bitsLt_bf16_f32)
    (truncf .bf16 (tanh (preact x0 x1)) bitsLt_bf16_f32) (constant S8x4096 .f32 0x00000000#32)

/-- Each row's maximum, from −∞. -/
def topV : FVec Ideal S8 .f32 :=
  multiReduction .maximumf [1] S8 (scoresV x0 x1 x2) 0xFF800000#32 reduces_S8x4096_S8 (.inl rfl) rfl

/-- The exponentials of the scores less their row's maximum. -/
def liftedV : FVec Ideal S8x4096 .f32 :=
  exp (subf (scoresV x0 x1 x2) (broadcastTo S8x4096 (shapeCast S8x1 (topV x0 x1 x2) shapeCasts_S8_S8x1) broadcasts_S8x1_S8x4096))

/-- Each row's sum of exponentials. -/
def massV : FVec Ideal S8 .f32 :=
  multiReduction .add [1] S8 (liftedV x0 x1 x2) 0x00000000#32 reduces_S8x4096_S8 (.inl rfl) rfl

/-- The second payload is the exponentials divided by their row sums. -/
theorem pay2_eq : k0_pay2 x0 x1 x2
    = divf (liftedV x0 x1 x2) (broadcastTo S8x4096 (shapeCast S8x1 (massV x0 x1 x2) shapeCasts_S8_S8x1) broadcasts_S8x1_S8x4096) := rfl

theorem preact_apply (s : Fin 4096) (a : Fin 256) :
    preact x0 x1 (ix2 s a) = ∑ d : Fin 512, blockRows x0 s d * Cert.Attn.mat x1 a d := by
  refine (first_product_apply _ _ s a).trans (Finset.sum_congr rfl fun d _ => ?_)
  rw [pay1_apply]
  rfl

theorem scores_apply (r : Fin 8) (s : Fin 4096) :
    scoresV x0 x1 x2 (ix2 r s) = Cert.Attn.score (blockRows x0) (Cert.Attn.mat x1) (Cert.Attn.mat x2) r s := by
  refine (second_product_apply _ _ r s).trans (Finset.sum_congr rfl fun a _ => ?_)
  show x2 (ix2 r a) * Ideal.tanh (preact x0 x1 (ix2 s a)) = _
  rw [preact_apply]
  rfl

theorem top_apply (r : Fin 8) :
    topV x0 x1 x2 (ix1 r) = Cert.Attn.top (blockRows x0) (Cert.Attn.mat x1) (Cert.Attn.mat x2) r := by
  refine (Cert.RowMax.max_over_columns_apply (a := 8) (n := 4096) (scoresV x0 x1 x2) reduces_S8x4096_S8 (.inl rfl) rfl r).trans ?_
  exact Finset.fold_congr fun s _ => scores_apply x0 x1 x2 r s

theorem lifted_apply (r : Fin 8) (s : Fin 4096) :
    liftedV x0 x1 x2 (ix2 r s) = Cert.Attn.lifted (blockRows x0) (Cert.Attn.mat x1) (Cert.Attn.mat x2) r s := by
  show Ideal.exp (scoresV x0 x1 x2 (ix2 r s) - broadcastTo S8x4096 (shapeCast S8x1 (topV x0 x1 x2) shapeCasts_S8_S8x1) broadcasts_S8x1_S8x4096 (ix2 r s)) = _
  rw [Cert.RowOps.column_repeated_apply (a := 8) (b := 4096) (topV x0 x1 x2) shapeCasts_S8_S8x1 broadcasts_S8x1_S8x4096 r s,
    scores_apply, top_apply]
  rfl

theorem mass_apply (r : Fin 8) :
    massV x0 x1 x2 (ix1 r) = Cert.Attn.mass (blockRows x0) (Cert.Attn.mat x1) (Cert.Attn.mat x2) r := by
  refine (Cert.RowOps.sum_over_columns_apply (a := 8) (n := 4096) (liftedV x0 x1 x2) reduces_S8x4096_S8 (.inl rfl) rfl r).trans ?_
  exact Finset.sum_congr rfl fun s _ => lifted_apply x0 x1 x2 r s

/-- Entry (r, s) of the second payload is head r's weight on position s. -/
theorem pay2_apply (r : Fin 8) (s : Fin 4096) :
    k0_pay2 x0 x1 x2 (ix2 r s) = Cert.Attn.weight (blockRows x0) (Cert.Attn.mat x1) (Cert.Attn.mat x2) r s := by
  rw [pay2_eq]
  show Ideal.div (liftedV x0 x1 x2 (ix2 r s)) (broadcastTo S8x4096 (shapeCast S8x1 (massV x0 x1 x2) shapeCasts_S8_S8x1) broadcasts_S8x1_S8x4096 (ix2 r s)) = _
  rw [Cert.RowOps.column_repeated_apply (a := 8) (b := 4096) (massV x0 x1 x2) shapeCasts_S8_S8x1 broadcasts_S8x1_S8x4096 r s,
    lifted_apply, mass_apply]
  rfl

/-- Entry (·, r, s) of what is stored into the weights' block. -/
theorem pay4_apply (u : Fin 1) (r : Fin 8) (s : Fin 4096) :
    k0_pay4 x0 x1 x2 (ix3 u r s) = Cert.Attn.weight (blockRows x0) (Cert.Attn.mat x1) (Cert.Attn.mat x2) r s :=
  (shapeCast_ab_1ab_apply (a := 8) (b := 4096) (k0_pay2 x0 x1 x2) shapeCasts_S8x4096_S1x8x4096 u r s).trans (pay2_apply x0 x1 x2 r s)

/-- Entry (·, r, d) of what is stored into the outputs' block. -/
theorem pay3_apply (u : Fin 1) (r : Fin 8) (d : Fin 512) :
    k0_pay3 x0 x1 x2 (ix3 u r d) = Cert.Attn.mixed (blockRows x0) (Cert.Attn.mat x1) (Cert.Attn.mat x2) r d := by
  refine (shapeCast_ab_1ab_apply (a := 8) (b := 512)
    (matmul dot_S8x4096_S4096x512_S8x512_1_0_0_1_n_n none (truncf .bf16 (k0_pay2 x0 x1 x2) bitsLt_bf16_f32) (k0_pay1 x0) (constant S8x512 .f32 0x00000000#32))
    shapeCasts_S8x512_S1x8x512 u r d).trans ?_
  refine (third_product_apply _ _ r d).trans (Finset.sum_congr rfl fun s _ => ?_)
  show k0_pay2 x0 x1 x2 (ix2 r s) * k0_pay1 x0 (ix2 s d) = _
  rw [pay2_apply, pay1_apply]
  rfl

end Cert.KernelIdeal.Body

end
-- ==== Proof.KernelArrays.lean ====
/-
  From the kernel's blocks to its two whole arrays.

  The grid has one step per batch entry.  At step t the kernel reads block (t, 0, 0) of the three-axis input — all of
  batch entry t — and the whole of each projection matrix, and writes block (t, 0, 0) of each result: all 8 × 512
  outputs and all 8 × 4096 weights of batch entry t.  So what step t writes back is the restriction to batch entry t of
  ONE function of the three argument arrays — `mixes` for the first result, `weights` for the second — and the 32
  blocks cover each result array: after the last step each array IS that function of the arguments.
-/
import proofs.«121916_j8392366096665_2_alg».proof.Proof.Gen.KernelIdeal.Frame
import proofs.«121916_j8392366096665_2_alg».proof.Proof.KernelBody
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the batched windows sit at block (t, 0, 0), the two matrices at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 32 := lt_of_lt_of_eq t.isLt N_0

/-! ## The input blocks at a step, as entries of the argument arrays -/

/-- Entry (·, s, d) of the input block at step t is entry (t, s, d) of the first argument. -/
theorem block0_apply (c : Dev nD) (t : Fin cfg0.N) (u : Fin 1) (s : Fin 4096) (d : Fin 512) :
    (iblk m c 0 t : Vec Ideal S1x4096x512 .f32) (ix3 u s d)
      = (m ((c : Thread nD τ).loc main_arg0) : S32x4096x512.Idx → EReal) (ix3 (⟨t.val, point_lt t⟩ : Fin 32) s d) := by
  obtain ⟨e0, e1, e2, -⟩ := idx_facts t
  have hu : u.val = 0 := by omega
  show (m ((c : Thread nD τ).loc main_arg0) : S32x4096x512.Idx → EReal) (((cfg0.win 0).blk t).view.emb (ix3 u s d)) = _
  refine congrArg _ (funext fun a => Fin.ext ?_)
  match a with
  | ⟨0, _⟩ => show win0_0.index t (0 : Fin 3) * 1 + 1 * u.val = t.val; omega
  | ⟨1, _⟩ => show win0_0.index t (1 : Fin 3) * 4096 + 1 * s.val = s.val; omega
  | ⟨2, _⟩ => show win0_0.index t (2 : Fin 3) * 512 + 1 * d.val = d.val; omega

/-- The first projection's block at any step is the whole second argument. -/
theorem block1_apply (c : Dev nD) (t : Fin cfg0.N) (a : Fin 256) (d : Fin 512) :
    (iblk m c 1 t : Vec Ideal S256x512 .f32) (ix2 a d)
      = (m ((c : Thread nD τ).loc main_arg1) : S256x512.Idx → EReal) (ix2 a d) := by
  obtain ⟨-, -, -, e0, e1, -⟩ := idx_facts t
  show (m ((c : Thread nD τ).loc main_arg1) : S256x512.Idx → EReal) (((cfg0.win 1).blk t).view.emb (ix2 a d)) = _
  refine congrArg _ (funext fun ax => Fin.ext ?_)
  match ax with
  | ⟨0, _⟩ => show win0_1.index t (0 : Fin 2) * 256 + 1 * a.val = a.val; omega
  | ⟨1, _⟩ => show win0_1.index t (1 : Fin 2) * 512 + 1 * d.val = d.val; omega

/-- The second projection's block at any step is the whole third argument. -/
theorem block2_apply (c : Dev nD) (t : Fin cfg0.N) (r : Fin 8) (a : Fin 256) :
    (iblk m c 2 t : Vec Ideal S8x256 .f32) (ix2 r a)
      = (m ((c : Thread nD τ).loc main_arg2) : S8x256.Idx → EReal) (ix2 r a) := by
  obtain ⟨-, -, -, -, -, e0, e1, -⟩ := idx_facts t
  show (m ((c : Thread nD τ).loc main_arg2) : S8x256.Idx → EReal) (((cfg0.win 2).blk t).view.emb (ix2 r a)) = _
  refine congrArg _ (funext fun ax => Fin.ext ?_)
  match ax with
  | ⟨0, _⟩ => show win0_2.index t (0 : Fin 2) * 8 + 1 * r.val = r.val; omega
  | ⟨1, _⟩ => show win0_2.index t (1 : Fin 2) * 256 + 1 * a.val = a.val; omega

/-! ## What a step stores, as the restriction of one function of the argument arrays -/

section Stored

variable (x0 : Vec Ideal S1x4096x512 .f32) (x1 : Vec Ideal S256x512 .f32) (x2 : Vec Ideal S8x256 .f32)
  (X : S32x4096x512.Idx → EReal) (W1 : S256x512.Idx → EReal) (W2 : S8x256.Idx → EReal) (b : Fin 32)
  (h0 : ∀ (u : Fin 1) (s : Fin 4096) (d : Fin 512), x0 (ix3 u s d) = X (ix3 b s d))
  (h1 : ∀ (a : Fin 256) (d : Fin 512), x1 (ix2 a d) = W1 (ix2 a d))
  (h2 : ∀ (r : Fin 8) (a : Fin 256), x2 (ix2 r a) = W2 (ix2 r a))

include h0 in
theorem rows_eq : blockRows x0 = Cert.Attn.rowsOf X b := funext fun s => funext fun d => h0 0 s d
include h1 in
theorem mat1_eq : Cert.Attn.mat x1 = Cert.Attn.mat W1 := funext fun a => funext fun d => h1 a d
include h2 in
theorem mat2_eq : Cert.Attn.mat x2 = Cert.Attn.mat W2 := funext fun r => funext fun a => h2 r a

include h0 h1 h2 in
/-- A block that is batch entry b of the arguments stores, at (·, r, s), entry (b, r, s) of the weights. -/
theorem stored_weights (u : Fin 1) (r : Fin 8) (s : Fin 4096) :
    k0_pay4 x0 x1 x2 (ix3 u r s) = Cert.Attn.weights X W1 W2 (ix3 b r s) := by
  rw [pay4_apply, rows_eq x0 X b h0, mat1_eq x1 W1 h1, mat2_eq x2 W2 h2]
  rfl

include h0 h1 h2 in
/-- And at (·, r, d), entry (b, r, d) of the outputs. -/
theorem stored_mixes (u : Fin 1) (r : Fin 8) (d : Fin 512) :
    k0_pay3 x0 x1 x2 (ix3 u r d) = Cert.Attn.mixes X W1 W2 (ix3 b r d) := by
  rw [pay3_apply, rows_eq x0 X b h0, mat1_eq x1 W1 h1, mat2_eq x2 W2 h2]
  rfl

end Stored

/-- The three argument arrays as the region finds them. -/
abbrev argX (c : Dev nD) : S32x4096x512.Idx → EReal := m ((c : Thread nD τ).loc main_arg0)
abbrev argW1 (c : Dev nD) : S256x512.Idx → EReal := m ((c : Thread nD τ).loc main_arg1)
abbrev argW2 (c : Dev nD) : S8x256.Idx → EReal := m ((c : Thread nD τ).loc main_arg2)

/-- What step t writes back to the second result is block t of the weights. -/
theorem flushed_weights (c : Dev nD) (t : Fin cfg0.N) :
    (dats m 0 c).flushed 4 t = ((cfg0.win 4).blk t).view.read (Elt Ideal) (Cert.Attn.weights (argX m c) (argW1 m c) (argW2 m c)) := by
  show (cfg0.win 4).cut (grid0.coords t) ((dats m 0 c).after 4 t) = _
  rw [after0_4]
  unfold out0_4
  rw [View.canon_unit_zero hz3]
  simp only [View.ld_unit_zero (S := S1x4096x512) hz3, View.ld_unit_zero (S := S256x512) hz2, View.ld_unit_zero (S := S8x256) hz2]
  obtain ⟨-, -, -, -, -, -, -, -, -, -, e0, e1, e2⟩ := idx_facts t
  refine funext fun (j : S1x8x4096.Idx) => ?_
  obtain ⟨u, r, s, rfl⟩ : ∃ (u : Fin 1) (r : Fin 8) (s : Fin 4096), j = ix3 u r s := ⟨j 0, j 1, j 2, eq_ix3 j⟩
  show k0_pay4 (iblk m c 0 t) (iblk m c 1 t) (iblk m c 2 t) (ix3 u r s)
    = Cert.Attn.weights (argX m c) (argW1 m c) (argW2 m c) (((cfg0.win 4).blk t).view.emb (ix3 u r s))
  have hu : u.val = 0 := by omega
  have hi : ((cfg0.win 4).blk t).view.emb (ix3 u r s) = ix3 (⟨t.val, point_lt t⟩ : Fin 32) r s := funext fun a => Fin.ext (by
    match a with
    | ⟨0, _⟩ => show win0_4.index t (0 : Fin 3) * 1 + 1 * u.val = t.val; omega
    | ⟨1, _⟩ => show win0_4.index t (1 : Fin 3) * 8 + 1 * r.val = r.val; omega
    | ⟨2, _⟩ => show win0_4.index t (2 : Fin 3) * 4096 + 1 * s.val = s.val; omega)
  rw [hi]
  exact stored_weights (iblk m c 0 t) (iblk m c 1 t) (iblk m c 2 t) (argX m c) (argW1 m c) (argW2 m c) ⟨t.val, point_lt t⟩
    (fun u s d => block0_apply m c t u s d) (fun a d => block1_apply m c t a d) (fun r a => block2_apply m c t r a) u r s

/-- What step t writes back to the first result is block t of the outputs. -/
theorem flushed_mixes (c : Dev nD) (t : Fin cfg0.N) :
    (dats m 0 c).flushed 3 t = ((cfg0.win 3).blk t).view.read (Elt Ideal) (Cert.Attn.mixes (argX m c) (argW1 m c) (argW2 m c)) := by
  show (cfg0.win 3).cut (grid0.coords t) ((dats m 0 c).after 3 t) = _
  rw [after0_3]
  unfold out0_3
  rw [View.canon_unit_zero hz3]
  simp only [View.ld_unit_zero (S := S1x4096x512) hz3, View.ld_unit_zero (S := S256x512) hz2, View.ld_unit_zero (S := S8x256) hz2]
  obtain ⟨-, -, -, -, -, -, -, e0, e1, e2, -⟩ := idx_facts t
  refine funext fun (j : S1x8x512.Idx) => ?_
  obtain ⟨u, r, d, rfl⟩ : ∃ (u : Fin 1) (r : Fin 8) (d : Fin 512), j = ix3 u r d := ⟨j 0, j 1, j 2, eq_ix3 j⟩
  show k0_pay3 (iblk m c 0 t) (iblk m c 1 t) (iblk m c 2 t) (ix3 u r d)
    = Cert.Attn.mixes (argX m c) (argW1 m c) (argW2 m c) (((cfg0.win 3).blk t).view.emb (ix3 u r d))
  have hu : u.val = 0 := by omega
  have hi : ((cfg0.win 3).blk t).view.emb (ix3 u r d) = ix3 (⟨t.val, point_lt t⟩ : Fin 32) r d := funext fun a => Fin.ext (by
    match a with
    | ⟨0, _⟩ => show win0_3.index t (0 : Fin 3) * 1 + 1 * u.val = t.val; omega
    | ⟨1, _⟩ => show win0_3.index t (1 : Fin 3) * 8 + 1 * r.val = r.val; omega
    | ⟨2, _⟩ => show win0_3.index t (2 : Fin 3) * 512 + 1 * d.val = d.val; omega)
  rw [hi]
  exact stored_mixes (iblk m c 0 t) (iblk m c 1 t) (iblk m c 2 t) (argX m c) (argW1 m c) (argW2 m c) ⟨t.val, point_lt t⟩
    (fun u s d => block0_apply m c t u s d) (fun a d => block1_apply m c t a d) (fun r a => block2_apply m c t r a) u r d

/-! ## The blocks cover the arrays -/

/-- An entry of the second result is in step t's block iff each coordinate is in the block's range on its axis. -/
theorem mem_block4 (t : Fin cfg0.N) (i : S32x8x4096.Idx) :
    i ∈ ((cfg0.win 4).blk t).view.set ↔ ∀ a : Fin 3, win0_4.index t a * S1x8x4096.size a ≤ (i a).val ∧ (i a).val < win0_4.index t a * S1x8x4096.size a + S1x8x4096.size a := by
  show i ∈ ((View.whole main_v0_1).slice (win0_4.rect t)).set ↔ _
  rw [View.set_slice_whole, Rect.mem_set_unit]
  exact Iff.rfl

theorem mem_block3 (t : Fin cfg0.N) (i : S32x8x512.Idx) :
    i ∈ ((cfg0.win 3).blk t).view.set ↔ ∀ a : Fin 3, win0_3.index t a * S1x8x512.size a ≤ (i a).val ∧ (i a).val < win0_3.index t a * S1x8x512.size a + S1x8x512.size a := by
  show i ∈ ((View.whole main_v0_0).slice (win0_3.rect t)).set ↔ _
  rw [View.set_slice_whole, Rect.mem_set_unit]
  exact Iff.rfl

/-- Entry (b, ·, ·) is in the block of step b. -/
theorem cover4 (i : S32x8x4096.Idx) : ∃ t : Fin cfg0.N, (cfg0.win 4).flush t = true ∧ i ∈ ((cfg0.win 4).blk t).view.set := by
  have hb : (i 0).val < 32 := (i 0).isLt
  have h1 : (i 1).val < 8 := (i 1).isLt
  have h2 : (i 2).val < 4096 := (i 2).isLt
  let t : Fin cfg0.N := ⟨(i 0).val, lt_of_lt_of_eq hb N_0.symm⟩
  obtain ⟨-, -, -, -, -, -, -, -, -, -, e0, e1, e2⟩ := idx_facts t
  have ht : t.val = (i 0).val := rfl
  refine ⟨t, flush0_4 t, ?_⟩
  rw [mem_block4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 4096 ≤ (i 2).val ∧ (i 2).val < win0_4.index t (2 : Fin 3) * 4096 + 4096; omega

theorem cover3 (i : S32x8x512.Idx) : ∃ t : Fin cfg0.N, (cfg0.win 3).flush t = true ∧ i ∈ ((cfg0.win 3).blk t).view.set := by
  have hb : (i 0).val < 32 := (i 0).isLt
  have h1 : (i 1).val < 8 := (i 1).isLt
  have h2 : (i 2).val < 512 := (i 2).isLt
  let t : Fin cfg0.N := ⟨(i 0).val, lt_of_lt_of_eq hb N_0.symm⟩
  obtain ⟨-, -, -, -, -, -, -, e0, e1, e2, -⟩ := idx_facts t
  have ht : t.val = (i 0).val := rfl
  refine ⟨t, flush0_3 t, ?_⟩
  rw [mem_block3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 512 ≤ (i 2).val ∧ (i 2).val < win0_3.index t (2 : Fin 3) * 512 + 512; omega

/-! ## The two arrays after the last step -/

/-- The second result array ends holding the weights of the arguments. -/
theorem final_weights (c : Dev nD) :
    (dats m 0 c).arrAt 4 cfg0.N = Cert.Attn.weights (argX m c) (argW1 m c) (argW2 m c) :=
  (dats m 0 c).arrAt_eq_of_cover 4 (Cert.Attn.weights (argX m c) (argW1 m c) (argW2 m c))
    (fun t _ => flushed_weights m c t) cover4

/-- The first result array ends holding the outputs of the arguments. -/
theorem final_mixes (c : Dev nD) :
    (dats m 0 c).arrAt 3 cfg0.N = Cert.Attn.mixes (argX m c) (argW1 m c) (argW2 m c) :=
  (dats m 0 c).arrAt_eq_of_cover 3 (Cert.Attn.mixes (argX m c) (argW1 m c) (argW2 m c))
    (fun t _ => flushed_mixes m c t) cover3

end Cert.KernelIdeal.Arrays

end
-- ==== Proof.Penalty.lean ====
/-
  The last lines of both programs: the penalty as a function of the array of weights.

  From the 32 × 8 × 4096 weights A both programs form, per batch entry, the 8 × 8 products of the rows of A with each
  other, subtract the identity matrix (built from two index grids compared for equality), square, add up every entry
  of all 32 matrices, multiply by one and divide by 32.  The lines are the same in both programs, so they are written
  here once, as a function of A; the reference's second result is this function of its weights stage by unfolding.
-/
import proofs.«121916_j8392366096665_2_alg».proof.Proof.Gen.ReferenceIdeal.Read

noncomputable section

namespace Cert.ReferenceIdeal.Stages

open Cert.ReferenceIdeal Cert.ReferenceIdeal.Gen Cert.ReferenceIdeal.Read Idealize.ShloMosaic

/-- The 8 × 8 identity matrix repeated for each of the 32 batch entries. -/
def eye : FVec Ideal S32x8x8 .f32 :=
  broadcastInDim S32x8x8 ![0, 1, 2] bcast_S1x8x8_S32x8x8_0_1_2
    (broadcastInDim S1x8x8 ![1, 2] bcast_S8x8_S1x8x8_1_2
      (uitofp (F := Ideal) .f32
        (cmpi .eq (addi (iotaInDim S8x8 32 0) (broadcastInDim S8x8 ![] bcast_S_S8x8 (constantI S_ 32 0#32))) (iotaInDim S8x8 32 1))))

/-- The sum over all batch entries of the squared entries of A · Aᵀ − I, times one, over 32. -/
def penalty (A : FVec Ideal S32x8x4096 .f32) : FVec Ideal S_ .f32 :=
  Host.divf
    (mulf (constant (F := Ideal) S_ .f32 0x3F800000#32)
      (Host.reduceAdd
        (mulf (subf (Host.dotGeneral dot_S32x8x4096_S32x8x4096_S32x8x8_2_2_1_1_0_0 none A A) eye)
          (subf (Host.dotGeneral dot_S32x8x4096_S32x8x4096_S32x8x8_2_2_1_1_0_0 none A A) eye))
        (constant (F := Ideal) S_ .f32 0x00000000#32) reducesTo_S32x8x8_S_d0_1_2 h_S_))
    (constant (F := Ideal) S_ .f32 0x42000000#32)

/-- The reference's second result is the penalty of its weights stage. -/
theorem penalty_stage (x0 : (⟨S32x4096x512, .f32⟩ : BufTy).Contents (Elt Ideal)) (x1 : (⟨S256x512, .f32⟩ : BufTy).Contents (Elt Ideal))
    (x2 : (⟨S8x256, .f32⟩ : BufTy).Contents (Elt Ideal)) :
    val_main_v29 (F := Ideal) x0 x1 x2 = penalty (val_main_v14 (F := Ideal) x0 x1 x2) := rfl

end Cert.ReferenceIdeal.Stages

end
-- ==== Proof.KernelRun.lean ====
/-
  The kernel's run, read back.

  Every execution of the kernel's program ends with its first result array at `mixes` of the arguments (the array the
  32 grid steps fill), with its second result at the penalty of `weights` of the arguments (the lines after the grid
  applied to the other array the steps fill), and with the three arguments as they were.
-/
import proofs.«121916_j8392366096665_2_alg».proof.Proof.Gen.KernelIdeal.Frame
import proofs.«121916_j8392366096665_2_alg».proof.Proof.KernelArrays
import proofs.«121916_j8392366096665_2_alg».proof.Proof.Penalty
import Idealize.ShloMosaic.Lib.StableHlo.Run
import Idealize.ShloMosaic.Lib.Pipeline.Value
import Idealize.ShloMosaic.PureOps.Ideal

set_option maxRecDepth 16384

noncomputable section

namespace Cert.KernelIdeal.Run

open Cert.KernelIdeal Cert.KernelIdeal.Gen Cert.KernelIdeal.Arrays
open Idealize.ShloMosaic Idealize.ShloMosaic.TcCoe Idealize.SL.Sem Idealize.ShloMosaic.StableHlo

variable (m : (ℓ : Loc nD τ sig) → Buf (Elt Ideal) ℓ) (ρ : Dev nD → PrngReg)

/-- The second result's buffer is none of the arrays the grid steps read or fill. -/
theorem penalty_buffer_rest : main_v14 ∈ Pipeline.restRefs sig (cfgs 0).spec :=
  Pipeline.mem_restRefs_of main_v14 rfl (fun w => by fin_cases w <;> decide)

/-- The lines after the grid leave, in the second result's buffer, the penalty of the array of weights the steps filled. -/
theorem tail_eq (c : Dev nD) :
    Pipeline.afterTail₀ cfgs (dats m) 0 (V0 m) [hostOps1] c main_v14
      = Cert.ReferenceIdeal.Stages.penalty ((dats m 0 c).arrAt 4 cfg0.N) := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v0_1)
      = (dats m 0 c).arrAt 4 cfg0.N :=
    Pipeline.withArrays_arr (cfgs 0).spec launch0.win.arr_inj c (V0 m c) (fun w => (dats m 0 c).arrAt w (cfgs 0).N) 4
  rw [e]
  rfl

/-- The run: both results named, the arguments unchanged. -/
theorem run : θ_run defs (onTc (τ := τ) (main (F := Ideal))) ⟨m, fun _ => 0, ρ⟩ (fun r => ∀ c : Dev nD,
      r.2.mem ((c.tc : Thread nD τ).loc main_v0_0) = Cert.Attn.mixes (argX m c) (argW1 m c) (argW2 m c)
      ∧ r.2.mem ((c.tc : Thread nD τ).loc main_v14) = Cert.ReferenceIdeal.Stages.penalty (Cert.Attn.weights (argX m c) (argW1 m c) (argW2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_mixes m c),
      ((h c).2 main_v14 penalty_buffer_rest).trans ((tail_eq m c).trans (congrArg Cert.ReferenceIdeal.Stages.penalty (final_weights m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.RefStages.lean ====
/-
  The reference's stages are the specification's functions.

  The reference forms, for all 32 batch entries at once, X · W1ᵀ (contracting the feature axis), tanh of it, W2
  against the hidden axis (which comes out as head × batch × position and is then transposed to batch × head ×
  position), the maximum over positions from −∞ (followed by one more `max` with −∞, which changes nothing), the
  exponentials of the differences, their sum over positions from zero, the quotient, and the weighted sum of the rows
  of X per batch entry.  Read at an entry (b, r, s) or (b, r, d), each stage is the corresponding function of the
  specification for batch entry b; so the stage before the product with X is `weights` and that product is `mixes`.
-/
import proofs.«121916_j8392366096665_2_alg».proof.Proof.Gen.ReferenceIdeal.Read
import proofs.«121916_j8392366096665_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.ValueIdx
open Cert.Attn

/-- −∞ is the unit of `max` on the extended reals. -/
theorem neg_inf_max (y : EReal) : max (Ideal.ofBits .f32 0xFF800000#32) y = y := by
  simp [Ideal.ofBits, Ideal.ieee]

variable (x0 : (⟨S32x4096x512, .f32⟩ : BufTy).Contents (Elt Ideal)) (x1 : (⟨S256x512, .f32⟩ : BufTy).Contents (Elt Ideal))
  (x2 : (⟨S8x256, .f32⟩ : BufTy).Contents (Elt Ideal))

/-- The hidden units: tanh of the rows of batch entry b against the rows of W1. -/
theorem hidden_stage (b : Fin 32) (s : Fin 4096) (a : Fin 256) :
    val_main_v1 (F := Ideal) x0 x1 (ix3 b s a) = hidden (rowsOf x0 b) (mat x1) s a := by
  rw [val_main_v1_apply, val_main_v0_apply]
  have el : ∀ k : Fin 512, lidx_main_v0 (ix3 b s a) k = ix3 b s k := fun k => funext fun ax => by
    match ax with
    | ⟨0, _⟩ => rfl
    | ⟨1, _⟩ => rfl
    | ⟨2, _⟩ => rfl
  have er : ∀ k : Fin 512, ridx_main_v0 (ix3 b s a) k = ix2 a k := fun k => funext fun ax => by
    match ax with
    | ⟨0, _⟩ => rfl
    | ⟨1, _⟩ => rfl
  simp only [el, er]
  rfl

/-- The scores, after the transposition to batch × head × position. -/
theorem score_stage (b : Fin 32) (r : Fin 8) (s : Fin 4096) :
    val_main_v3 (F := Ideal) x0 x1 x2 (ix3 b r s) = score (rowsOf x0 b) (mat x1) (mat x2) r s := by
  rw [val_main_v3_apply]
  have e3 : idx_main_v3 (ix3 b r s) = ix3 r b s := funext fun ax => by
    match ax with
    | ⟨0, _⟩ => rfl
    | ⟨1, _⟩ => rfl
    | ⟨2, _⟩ => rfl
  rw [e3, val_main_v2_apply]
  have el : ∀ k : Fin 256, lidx_main_v2 (ix3 r b s) k = ix2 r k := fun k => funext fun ax => by
    match ax with
    | ⟨0, _⟩ => rfl
    | ⟨1, _⟩ => rfl
  have er : ∀ k : Fin 256, ridx_main_v2 (ix3 r b s) k = ix3 b s k := fun k => funext fun ax => by
    match ax with
    | ⟨0, _⟩ => rfl
    | ⟨1, _⟩ => rfl
    | ⟨2, _⟩ => rfl
  simp only [el, er, hidden_stage]
  rfl

/-- The largest score of a head: the host's reduction with a `max` body over the last axis, from −∞. -/
theorem top_stage (b : Fin 32) (r : Fin 8) :
    val_main_v4 (F := Ideal) x0 x1 x2 (ix2 b r) = top (rowsOf x0 b) (mat x1) (mat x2) r := by
  unfold val_main_v4 top
  refine (Host.reduce_eq_fold_single (α := Ideal .f32) (s := S32x8x4096) (t := S32x8) (a := 2) (u := S_)
    (FloatOps.maximumf (F := Ideal) (φ := .f32)) (val_main_v3 (F := Ideal) x0 x1 x2) (val_main_cst (F := Ideal))
    reducesTo_S32x8x4096_S32x8_d2 (by decide) h_S_ (ix2 b r)).trans ?_
  refine Finset.fold_congr fun s _ => ?_
  refine Eq.trans (congrArg (val_main_v3 (F := Ideal) x0 x1 x2) (funext fun ax => Fin.ext ?_)) (score_stage x0 x1 x2 b r s)
  match ax with
  | ⟨0, _⟩ => rfl
  | ⟨1, _⟩ => rfl
  | ⟨2, _⟩ => rfl

/-- One more `max` with −∞ changes nothing. -/
theorem top_again_stage (b : Fin 32) (r : Fin 8) :
    val_main_v6 (F := Ideal) x0 x1 x2 (ix2 b r) = top (rowsOf x0 b) (mat x1) (mat x2) r := by
  rw [val_main_v6_apply, val_main_v5_apply, val_main_cst_0_apply, top_stage]
  exact neg_inf_max _

/-- The exponentials. -/
theorem lifted_stage (b : Fin 32) (r : Fin 8) (s : Fin 4096) :
    val_main_v10 (F := Ideal) x0 x1 x2 (ix3 b r s) = lifted (rowsOf x0 b) (mat x1) (mat x2) r s := by
  rw [val_main_v10_apply, val_main_v9_apply, val_main_v8_apply, val_main_v7_apply, score_stage]
  have e : idx_main_v7 (idx_main_v8 (ix3 b r s)) = ix2 b r := funext fun ax => by
    match ax with
    | ⟨0, _⟩ => rfl
    | ⟨1, _⟩ => rfl
  rw [e, top_again_stage]
  rfl

/-- Their sum over the positions, from zero. -/
theorem mass_stage (b : Fin 32) (r : Fin 8) :
    val_main_v11 (F := Ideal) x0 x1 x2 (ix2 b r) = mass (rowsOf x0 b) (mat x1) (mat x2) r := by
  rw [val_main_v11_apply, val_main_cst_1_apply]
  have e : ∀ k : Fin 4096, idx_main_v11 (ix2 b r) k = ix3 b r k := fun k => funext fun ax => by
    match ax with
    | ⟨0, _⟩ => rfl
    | ⟨1, _⟩ => rfl
    | ⟨2, _⟩ => rfl
  simp only [e, lifted_stage]
  show Ideal.ofBits .f32 0x00000000#32 + _ = _
  rw [Ideal.ofBits_zero_f32, zero_add]
  rfl

/-- The weights. -/
theorem weight_stage (b : Fin 32) (r : Fin 8) (s : Fin 4096) :
    val_main_v14 (F := Ideal) x0 x1 x2 (ix3 b r s) = weight (rowsOf x0 b) (mat x1) (mat x2) r s := by
  rw [val_main_v14_apply, val_main_v13_apply, val_main_v12_apply, lifted_stage]
  have e : idx_main_v12 (idx_main_v13 (ix3 b r s)) = ix2 b r := funext fun ax => by
    match ax with
    | ⟨0, _⟩ => rfl
    | ⟨1, _⟩ => rfl
  rw [e, mass_stage]
  rfl

/-- The stage the reference multiplies into X is the array of weights. -/
theorem weights_eq : val_main_v14 (F := Ideal) x0 x1 x2 = weights x0 x1 x2 := by
  funext i
  obtain ⟨b, r, s, rfl⟩ : ∃ (b : Fin 32) (r : Fin 8) (s : Fin 4096), i = ix3 b r s := ⟨i 0, i 1, i 2, eq_ix3 i⟩
  exact weight_stage x0 x1 x2 b r s

/-- The reference's first result is the array of outputs. -/
theorem mixes_eq : val_main_v15 (F := Ideal) x0 x1 x2 = mixes x0 x1 x2 := by
  funext i
  obtain ⟨b, r, d, rfl⟩ : ∃ (b : Fin 32) (r : Fin 8) (d : Fin 512), i = ix3 b r d := ⟨i 0, i 1, i 2, eq_ix3 i⟩
  rw [val_main_v15_apply]
  have el : ∀ k : Fin 4096, lidx_main_v15 (ix3 b r d) k = ix3 b r k := fun k => funext fun ax => by
    match ax with
    | ⟨0, _⟩ => rfl
    | ⟨1, _⟩ => rfl
    | ⟨2, _⟩ => rfl
  have er : ∀ k : Fin 4096, ridx_main_v15 (ix3 b r d) k = ix3 b k d := fun k => funext fun ax => by
    match ax with
    | ⟨0, _⟩ => rfl
    | ⟨1, _⟩ => rfl
    | ⟨2, _⟩ => rfl
  simp only [el, er, weight_stage]
  rfl

end Cert.ReferenceIdeal.Stages

end
-- ==== Proof.lean ====
/-
  A fused attention block against its plain reference, on the extended reals.

  Both programs take X (32 × 4096 × 512), W1 (256 × 512) and W2 (8 × 256).  Per batch entry b they form the hidden
  units tanh (X_b · W1ᵀ), the 8 × 4096 scores W2 · hiddenᵀ, the weights by subtracting each head's largest score,
  exponentiating and dividing by the row sum, and the outputs as the weights times X_b; and from the array A of all
  weights the penalty: the sum over the batch of the squared entries of A · Aᵀ − I, over 32.  They return the
  outputs and the penalty.

  The kernel does one batch entry per grid step and returns A to the host, which computes the penalty; the
  reference does everything on whole arrays, with the scores produced head-major and transposed.  On the extended
  reals a change of float format is the identity, a matrix product into a zero accumulator is the plain sum over the
  contracted index whichever way the operands are tiled or ordered, the reductions over the positions are the same
  fold of `max` from −∞ and the same finite sum, and the reference's extra `max` with −∞ is the identity.  So:

  * the kernel's two arrays are `mixes` and `weights` of the arguments (KernelBody: one grid step entry by entry;
    KernelArrays: the 32 blocks cover the arrays; KernelRun: the run, with the host's last lines applied);
  * the reference's stages are the same two functions (RefStages), and its last lines are the kernel's (Penalty);
  * no step uses that the inputs are finite: the two sides are one function of the arguments, infinities included.

  The three frames are the generated ones (the reference's is its generated run with the results dropped), and the
  kernel's idealization rewrote nothing, so there is nothing to preserve.
-/
import proofs.«121916_j8392366096665_2_alg».proof.Defs
import proofs.«121916_j8392366096665_2_alg».proof.Proof.Gen.Kernel
import proofs.«121916_j8392366096665_2_alg».proof.Proof.Gen.Kernel.Skeleton
import proofs.«121916_j8392366096665_2_alg».proof.Proof.Gen.Kernel.Launch
import proofs.«121916_j8392366096665_2_alg».proof.Proof.Gen.Kernel.Points
import proofs.«121916_j8392366096665_2_alg».proof.Proof.Gen.Kernel.Frame
import proofs.«121916_j8392366096665_2_alg».proof.Proof.Gen.KernelIdeal
import proofs.«121916_j8392366096665_2_alg».proof.Proof.Gen.KernelIdeal.Skeleton
import proofs.«121916_j8392366096665_2_alg».proof.Proof.Gen.KernelIdeal.Launch
import proofs.«121916_j8392366096665_2_alg».proof.Proof.Gen.KernelIdeal.Points
import proofs.«121916_j8392366096665_2_alg».proof.Proof.Gen.KernelIdeal.Frame
import proofs.«121916_j8392366096665_2_alg».proof.Proof.Gen.ReferenceIdeal
import proofs.«121916_j8392366096665_2_alg».proof.Proof.Gen.ReferenceIdeal.Run
import proofs.«121916_j8392366096665_2_alg».proof.Proof.Gen.ReferenceIdeal.Read
import proofs.«121916_j8392366096665_2_alg».proof.Proof.Gen.Pre_finite_inputs
import proofs.«121916_j8392366096665_2_alg».proof.Proof.KernelRun
import proofs.«121916_j8392366096665_2_alg».proof.Proof.RefStages
import proofs.«121916_j8392366096665_2_alg».proof.Proof.Penalty
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the outputs at `mixes` of the arguments and the penalty at `penalty` of `weights` of the
    arguments: the kernel by its run read back, the reference by its stages, from memories that agree on the arguments. -/
theorem algebraic : Cert.algebraic_KernelIdeal_ReferenceIdeal := by
  intro m ρ m' ρ' _ hagree
  refine ⟨fun c => Cert.Attn.mixes (Cert.KernelIdeal.Arrays.argX m c) (Cert.KernelIdeal.Arrays.argW1 m c) (Cert.KernelIdeal.Arrays.argW2 m c),
    fun c => Cert.ReferenceIdeal.Stages.penalty
      (Cert.Attn.weights (Cert.KernelIdeal.Arrays.argX m c) (Cert.KernelIdeal.Arrays.argW1 m c) (Cert.KernelIdeal.Arrays.argW2 m c)),
    Cert.KernelIdeal.Run.run m ρ, ?_⟩
  refine (θ_run Cert.ReferenceIdeal.defs _ _).mono (fun _ h c => ?_) (Cert.ReferenceIdeal.Value.run (F := Ideal) m' ρ')
  obtain ⟨h15, h29, ha0, ha1, ha2⟩ := h c
  obtain ⟨g0, g1, g2⟩ := hagree c
  refine ⟨h15.trans ?_, h29.trans ?_, ha0, ha1, ha2⟩
  · rw [g0, g1, g2]
    exact (Cert.ReferenceIdeal.Read.val_main_v15_eq _ _ _).trans (Cert.ReferenceIdeal.Stages.mixes_eq _ _ _)
  · rw [Cert.ReferenceIdeal.Read.val_main_v29_eq, g0, g1, g2]
    exact (Cert.ReferenceIdeal.Stages.penalty_stage _ _ _).trans
      (congrArg Cert.ReferenceIdeal.Stages.penalty (Cert.ReferenceIdeal.Stages.weights_eq _ _ _))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
